-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x2 : Shape := ⟨2, ![16, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S16x2 1) : IVec S_ 1 :=
  let main_c_5 : IVec S_ 1 := constantI S_ 1 1#1
  let main_v17 : IVec S_ 1 := (fun x v => Host.reduce IntOp.andi x v reducesTo_S16x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S100000x128 .f32) (main_arg1 : IVec S2x3200000 32) (main_arg2 : FVec F S128x16 .f32) (main_arg3 : FVec F S16 .f32) (main_arg4 : FVec F S16x2 .f32) (main_arg5 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg2
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x2 .f32 := Host.absf main_arg4
  let main_cst_4 : FVec F S_ .f32 := constant S_ .f32 0x7F800000#32
  let main_v15 : FVec F S16x2 .f32 := broadcastInDim S16x2 ![] bcast_S_S16x2 main_cst_4
  let main_v16 : IVec S16x2 1 := cmpf .olt main_v14 main_v15
  fn_part1 (F := F) main_arg5 main_v13 main_v16
-- ==== Kernel.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x2 : Shape := ⟨2, ![16, 2]⟩
abbrev S2 : Shape := ⟨1, ![2]⟩
abbrev S100000x16 : Shape := ⟨2, ![100000, 16]⟩
abbrev S10000x128 : Shape := ⟨2, ![10000, 128]⟩
abbrev S10000x16 : Shape := ⟨2, ![10000, 16]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x2 : Shape := ⟨2, ![100000, 2]⟩
abbrev S10000x2 : Shape := ⟨2, ![10000, 2]⟩
abbrev S3300000x2 : Shape := ⟨2, ![3300000, 2]⟩
abbrev S1x2 : Shape := ⟨2, ![1, 2]⟩

abbrev nBuf : Space → Nat
  | .hbm => 133
  | .vmem => 10
  | .smem => 0
  | _ => 0

abbrev hbmTy0_0 (i : Nat) : BufTy := match i % 128 with
  | 0 => ⟨S100000x128, .f32⟩
  | 1 => ⟨S2x3200000, .i32⟩
  | 2 => ⟨S128x16, .f32⟩
  | 3 => ⟨S16, .f32⟩
  | 4 => ⟨S16x2, .f32⟩
  | 5 => ⟨S2, .f32⟩
  | 6 => ⟨S100000x16, .f32⟩
  | 7 => ⟨S1x3200000, .i32⟩
  | 8 => ⟨S3200000, .i32⟩
  | 9 => ⟨S1x3200000, .i32⟩
  | 10 => ⟨S3200000, .i32⟩
  | 11 => ⟨S100000, .i32⟩
  | 12 => ⟨S3300000, .i32⟩
  | 13 => ⟨S3300000, .i32⟩
  | 14 => ⟨S_, .f32⟩
  | 15 => ⟨S3300000, .f32⟩
  | 16 => ⟨S_, .f32⟩
  | 17 => ⟨S100000, .f32⟩
  | 18 => ⟨S3300000x1, .i32⟩
  | 19 => ⟨S100000, .f32⟩
  | 20 => ⟨S_, .f32⟩
  | 21 => ⟨S100000, .f32⟩
  | 22 => ⟨S100000, .i1⟩
  | 23 => ⟨S_, .f32⟩
  | 24 => ⟨S100000, .f32⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S3300000, .i32⟩
  | 32 => ⟨S3300000, .i1⟩
  | 33 => ⟨S_, .i32⟩
  | 34 => ⟨S3300000, .i32⟩
  | 35 => ⟨S3300000, .i32⟩
  | 36 => ⟨S3300000, .i32⟩
  | 37 => ⟨S3300000x1, .i32⟩
  | 38 => ⟨S3300000, .f32⟩
  | 39 => ⟨S_, .i32⟩
  | 40 => ⟨S3300000, .i32⟩
  | 41 => ⟨S3300000, .i1⟩
  | 42 => ⟨S_, .i32⟩
  | 43 => ⟨S3300000, .i32⟩
  | 44 => ⟨S3300000, .i32⟩
  | 45 => ⟨S3300000, .i32⟩
  | 46 => ⟨S3300000x1, .i32⟩
  | 47 => ⟨S3300000, .f32⟩
  | 48 => ⟨S3300000, .f32⟩
  | 49 => ⟨S_, .i32⟩
  | 50 => ⟨S3300000, .i32⟩
  | 51 => ⟨S3300000, .i1⟩
  | 52 => ⟨S_, .i32⟩
  | 53 => ⟨S3300000, .i32⟩
  | 54 => ⟨S3300000, .i32⟩
  | 55 => ⟨S3300000, .i32⟩
  | 56 => ⟨S3300000x1, .i32⟩
  | 57 => ⟨S3300000x16, .f32⟩
  | 58 => ⟨S3300000x1, .f32⟩
  | 59 => ⟨S3300000x16, .f32⟩
  | 60 => ⟨S3300000x16, .f32⟩
  | 61 => ⟨S_, .f32⟩
  | 62 => ⟨S100000x16, .f32⟩
  | 63 => ⟨S3300000x1, .i32⟩
  | 64 => ⟨S100000x16, .f32⟩
  | 65 => ⟨S1x16, .f32⟩
  | 66 => ⟨S100000x16, .f32⟩
  | 67 => ⟨S100000x16, .f32⟩
  | 68 => ⟨S_, .f32⟩
  | 69 => ⟨S100000x16, .f32⟩
  | 70 => ⟨S100000x16, .f32⟩
  | 71 => ⟨S100000x2, .f32⟩
  | 72 => ⟨S1x3200000, .i32⟩
  | 73 => ⟨S3200000, .i32⟩
  | 74 => ⟨S1x3200000, .i32⟩
  | 75 => ⟨S3200000, .i32⟩
  | 76 => ⟨S100000, .i32⟩
  | 77 => ⟨S3300000, .i32⟩
  | 78 => ⟨S3300000, .i32⟩
  | 79 => ⟨S_, .f32⟩
  | 80 => ⟨S3300000, .f32⟩
  | 81 => ⟨S_, .f32⟩
  | 82 => ⟨S100000, .f32⟩
  | 83 => ⟨S3300000x1, .i32⟩
  | 84 => ⟨S100000, .f32⟩
  | 85 => ⟨S_, .f32⟩
  | 86 => ⟨S100000, .f32⟩
  | 87 => ⟨S100000, .i1⟩
  | 88 => ⟨S_, .f32⟩
  | 89 => ⟨S100000, .f32⟩
  | 90 => ⟨S100000, .f32⟩
  | 91 => ⟨S_, .f32⟩
  | 92 => ⟨S_, .f32⟩
  | 93 => ⟨S100000, .f32⟩
  | 94 => ⟨S100000, .f32⟩
  | 95 => ⟨S_, .i32⟩
  | 96 => ⟨S3300000, .i32⟩
  | 97 => ⟨S3300000, .i1⟩
  | 98 => ⟨S_, .i32⟩
  | 99 => ⟨S3300000, .i32⟩
  | 100 => ⟨S3300000, .i32⟩
  | 101 => ⟨S3300000, .i32⟩
  | 102 => ⟨S3300000x1, .i32⟩
  | 103 => ⟨S3300000, .f32⟩
  | 104 => ⟨S_, .i32⟩
  | 105 => ⟨S3300000, .i32⟩
  | 106 => ⟨S3300000, .i1⟩
  | 107 => ⟨S_, .i32⟩
  | 108 => ⟨S3300000, .i32⟩
  | 109 => ⟨S3300000, .i32⟩
  | 110 => ⟨S3300000, .i32⟩
  | 111 => ⟨S3300000x1, .i32⟩
  | 112 => ⟨S3300000, .f32⟩
  | 113 => ⟨S3300000, .f32⟩
  | 114 => ⟨S_, .i32⟩
  | 115 => ⟨S3300000, .i32⟩
  | 116 => ⟨S3300000, .i1⟩
  | 117 => ⟨S_, .i32⟩
  | 118 => ⟨S3300000, .i32⟩
  | 119 => ⟨S3300000, .i32⟩
  | 120 => ⟨S3300000, .i32⟩
  | 121 => ⟨S3300000x1, .i32⟩
  | 122 => ⟨S3300000x2, .f32⟩
  | 123 => ⟨S3300000x1, .f32⟩
  | 124 => ⟨S3300000x2, .f32⟩
  | 125 => ⟨S3300000x2, .f32⟩
  | 126 => ⟨S_, .f32⟩
  | 127 => ⟨S100000x2, .f32⟩
  | _ => ⟨S100000x128, .f32⟩

abbrev hbmTy0_1 (i : Nat) : BufTy := match i % 128 with
  | 0 => ⟨S3300000x1, .i32⟩
  | 1 => ⟨S100000x2, .f32⟩
  | 2 => ⟨S1x2, .f32⟩
  | 3 => ⟨S100000x2, .f32⟩
  | 4 => ⟨S100000x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x16, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S16x2, .f32⟩
  | .local _ .vmem, ⟨8, _⟩ => ⟨S10000x2, .f32⟩
  | .local _ .vmem, ⟨9, _⟩ => ⟨S10000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call1_cst : Ref sig .tc := ⟨.hbm, 68, rfl⟩
abbrev main_call1_v0 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_cst_13 : Ref sig .tc := ⟨.hbm, 88, rfl⟩
abbrev main_v63 : Ref sig .tc := ⟨.hbm, 89, rfl⟩
abbrev main_v64 : Ref sig .tc := ⟨.hbm, 90, rfl⟩
abbrev main_cst_14 : Ref sig .tc := ⟨.hbm, 91, rfl⟩
abbrev main_call2_v0 : Ref sig .tc := ⟨.hbm, 92, rfl⟩
abbrev main_call2_v1 : Ref sig .tc := ⟨.hbm, 93, rfl⟩
abbrev main_v65 : Ref sig .tc := ⟨.hbm, 94, rfl⟩
abbrev main_c_15 : Ref sig .tc := ⟨.hbm, 95, rfl⟩
abbrev main_v66 : Ref sig .tc := ⟨.hbm, 96, rfl⟩
abbrev main_v67 : Ref sig .tc := ⟨.hbm, 97, rfl⟩
abbrev main_c_16 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_c_17 : Ref sig .tc := ⟨.hbm, 104, rfl⟩
abbrev main_v73 : Ref sig .tc := ⟨.hbm, 105, rfl⟩
abbrev main_v74 : Ref sig .tc := ⟨.hbm, 106, rfl⟩
abbrev main_c_18 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_c_19 : Ref sig .tc := ⟨.hbm, 114, rfl⟩
abbrev main_v81 : Ref sig .tc := ⟨.hbm, 115, rfl⟩
abbrev main_v82 : Ref sig .tc := ⟨.hbm, 116, rfl⟩
abbrev main_c_20 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_21 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x2 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x2 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  shapeCasts_S10000x16_S10000x16 : S10000x16.ShapeCasts S10000x16
  inb_S16x2_S16x2_0_0 : ∀ a, (![0, 0] : Fin 2 → Nat) a + S16x2.size a ≤ S16x2.size a
  h_S16x2 : 0 < S16x2.numel
  inb_S10000x2_S10000x2_0_0 : ∀ a, (![0, 0] : Fin 2 → Nat) a + S10000x2.size a ≤ S10000x2.size a
  h_S10000x2 : 0 < S10000x2.numel
  bcast_S3300000x1_S3300000x2_0_1 : S3300000x1.BroadcastsInDim S3300000x2 (![0, 1] : Fin 2 → Fin S3300000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  dot_S10000x128_S128x16_S10000x16_1_0_0_1_n_n_wf : DotDims.WF S10000x128 S128x16 S10000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S10000x16_S16x2_S10000x2_1_0_0_1_n_n_wf : DotDims.WF S10000x16 S16x2 S10000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S100000x16.size a
  hwx0_2 : ∀ i : grid0.Coords, EltTy.bits .f32 = 32 ∨ (Rect.block (s := S100000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x2.size a ≤ S16x2.size a
  hwx1_1 : ∀ i : grid1.Coords, EltTy.bits .f32 = 32 ∨ (Rect.block (s := S16x2) S16x2.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x2.size a ≤ S100000x2.size a
  hwx1_2 : ∀ i : grid1.Coords, EltTy.bits .f32 = 32 ∨ (Rect.block (s := S100000x2) S10000x2.size (cc1_transform_2 i) (hinb1_2 i)).WholeWords (EltTy.packing .f32)

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S10000x16_S16x2_S10000x2_1_0_0_1_n_n : DotDims S10000x16 S16x2 S10000x2 where
  lhsContracting := [1]
  rhsContracting := [0]
  lhsNonContracting := [0]
  rhsNonContracting := [1]
  lhsBatch := []
  rhsBatch := []
  wf := dot_S10000x16_S16x2_S10000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x2.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S10000x2.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x2 : Shape := ⟨2, ![16, 2]⟩
abbrev S2 : Shape := ⟨1, ![2]⟩
abbrev S100000x16 : Shape := ⟨2, ![100000, 16]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x2 : Shape := ⟨2, ![100000, 2]⟩
abbrev S3300000x2 : Shape := ⟨2, ![3300000, 2]⟩
abbrev S1x2 : Shape := ⟨2, ![1, 2]⟩

abbrev nBuf : Space → Nat
  | .hbm => 133
  | .vmem => 0
  | .smem => 0
  | _ => 0

abbrev hbmTy0_0 (i : Nat) : BufTy := match i % 128 with
  | 0 => ⟨S100000x128, .f32⟩
  | 1 => ⟨S2x3200000, .i32⟩
  | 2 => ⟨S128x16, .f32⟩
  | 3 => ⟨S16, .f32⟩
  | 4 => ⟨S16x2, .f32⟩
  | 5 => ⟨S2, .f32⟩
  | 6 => ⟨S100000x16, .f32⟩
  | 7 => ⟨S1x3200000, .i32⟩
  | 8 => ⟨S3200000, .i32⟩
  | 9 => ⟨S1x3200000, .i32⟩
  | 10 => ⟨S3200000, .i32⟩
  | 11 => ⟨S100000, .i32⟩
  | 12 => ⟨S3300000, .i32⟩
  | 13 => ⟨S3300000, .i32⟩
  | 14 => ⟨S_, .f32⟩
  | 15 => ⟨S3300000, .f32⟩
  | 16 => ⟨S_, .f32⟩
  | 17 => ⟨S100000, .f32⟩
  | 18 => ⟨S3300000x1, .i32⟩
  | 19 => ⟨S100000, .f32⟩
  | 20 => ⟨S_, .f32⟩
  | 21 => ⟨S100000, .f32⟩
  | 22 => ⟨S100000, .i1⟩
  | 23 => ⟨S_, .f32⟩
  | 24 => ⟨S100000, .f32⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S3300000, .i32⟩
  | 32 => ⟨S3300000, .i1⟩
  | 33 => ⟨S_, .i32⟩
  | 34 => ⟨S3300000, .i32⟩
  | 35 => ⟨S3300000, .i32⟩
  | 36 => ⟨S3300000, .i32⟩
  | 37 => ⟨S3300000x1, .i32⟩
  | 38 => ⟨S3300000, .f32⟩
  | 39 => ⟨S_, .i32⟩
  | 40 => ⟨S3300000, .i32⟩
  | 41 => ⟨S3300000, .i1⟩
  | 42 => ⟨S_, .i32⟩
  | 43 => ⟨S3300000, .i32⟩
  | 44 => ⟨S3300000, .i32⟩
  | 45 => ⟨S3300000, .i32⟩
  | 46 => ⟨S3300000x1, .i32⟩
  | 47 => ⟨S3300000, .f32⟩
  | 48 => ⟨S3300000, .f32⟩
  | 49 => ⟨S_, .i32⟩
  | 50 => ⟨S3300000, .i32⟩
  | 51 => ⟨S3300000, .i1⟩
  | 52 => ⟨S_, .i32⟩
  | 53 => ⟨S3300000, .i32⟩
  | 54 => ⟨S3300000, .i32⟩
  | 55 => ⟨S3300000, .i32⟩
  | 56 => ⟨S3300000x1, .i32⟩
  | 57 => ⟨S3300000x16, .f32⟩
  | 58 => ⟨S3300000x1, .f32⟩
  | 59 => ⟨S3300000x16, .f32⟩
  | 60 => ⟨S3300000x16, .f32⟩
  | 61 => ⟨S_, .f32⟩
  | 62 => ⟨S100000x16, .f32⟩
  | 63 => ⟨S3300000x1, .i32⟩
  | 64 => ⟨S100000x16, .f32⟩
  | 65 => ⟨S1x16, .f32⟩
  | 66 => ⟨S100000x16, .f32⟩
  | 67 => ⟨S100000x16, .f32⟩
  | 68 => ⟨S_, .f32⟩
  | 69 => ⟨S100000x16, .f32⟩
  | 70 => ⟨S100000x16, .f32⟩
  | 71 => ⟨S100000x2, .f32⟩
  | 72 => ⟨S1x3200000, .i32⟩
  | 73 => ⟨S3200000, .i32⟩
  | 74 => ⟨S1x3200000, .i32⟩
  | 75 => ⟨S3200000, .i32⟩
  | 76 => ⟨S100000, .i32⟩
  | 77 => ⟨S3300000, .i32⟩
  | 78 => ⟨S3300000, .i32⟩
  | 79 => ⟨S_, .f32⟩
  | 80 => ⟨S3300000, .f32⟩
  | 81 => ⟨S_, .f32⟩
  | 82 => ⟨S100000, .f32⟩
  | 83 => ⟨S3300000x1, .i32⟩
  | 84 => ⟨S100000, .f32⟩
  | 85 => ⟨S_, .f32⟩
  | 86 => ⟨S100000, .f32⟩
  | 87 => ⟨S100000, .i1⟩
  | 88 => ⟨S_, .f32⟩
  | 89 => ⟨S100000, .f32⟩
  | 90 => ⟨S100000, .f32⟩
  | 91 => ⟨S_, .f32⟩
  | 92 => ⟨S_, .f32⟩
  | 93 => ⟨S100000, .f32⟩
  | 94 => ⟨S100000, .f32⟩
  | 95 => ⟨S_, .i32⟩
  | 96 => ⟨S3300000, .i32⟩
  | 97 => ⟨S3300000, .i1⟩
  | 98 => ⟨S_, .i32⟩
  | 99 => ⟨S3300000, .i32⟩
  | 100 => ⟨S3300000, .i32⟩
  | 101 => ⟨S3300000, .i32⟩
  | 102 => ⟨S3300000x1, .i32⟩
  | 103 => ⟨S3300000, .f32⟩
  | 104 => ⟨S_, .i32⟩
  | 105 => ⟨S3300000, .i32⟩
  | 106 => ⟨S3300000, .i1⟩
  | 107 => ⟨S_, .i32⟩
  | 108 => ⟨S3300000, .i32⟩
  | 109 => ⟨S3300000, .i32⟩
  | 110 => ⟨S3300000, .i32⟩
  | 111 => ⟨S3300000x1, .i32⟩
  | 112 => ⟨S3300000, .f32⟩
  | 113 => ⟨S3300000, .f32⟩
  | 114 => ⟨S_, .i32⟩
  | 115 => ⟨S3300000, .i32⟩
  | 116 => ⟨S3300000, .i1⟩
  | 117 => ⟨S_, .i32⟩
  | 118 => ⟨S3300000, .i32⟩
  | 119 => ⟨S3300000, .i32⟩
  | 120 => ⟨S3300000, .i32⟩
  | 121 => ⟨S3300000x1, .i32⟩
  | 122 => ⟨S3300000x2, .f32⟩
  | 123 => ⟨S3300000x1, .f32⟩
  | 124 => ⟨S3300000x2, .f32⟩
  | 125 => ⟨S3300000x2, .f32⟩
  | 126 => ⟨S_, .f32⟩
  | 127 => ⟨S100000x2, .f32⟩
  | _ => ⟨S100000x128, .f32⟩

abbrev hbmTy0_1 (i : Nat) : BufTy := match i % 128 with
  | 0 => ⟨S3300000x1, .i32⟩
  | 1 => ⟨S100000x2, .f32⟩
  | 2 => ⟨S1x2, .f32⟩
  | 3 => ⟨S100000x2, .f32⟩
  | 4 => ⟨S100000x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call1_cst : Ref sig .tc := ⟨.hbm, 68, rfl⟩
abbrev main_call1_v0 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_cst_13 : Ref sig .tc := ⟨.hbm, 88, rfl⟩
abbrev main_v63 : Ref sig .tc := ⟨.hbm, 89, rfl⟩
abbrev main_v64 : Ref sig .tc := ⟨.hbm, 90, rfl⟩
abbrev main_cst_14 : Ref sig .tc := ⟨.hbm, 91, rfl⟩
abbrev main_call2_v0 : Ref sig .tc := ⟨.hbm, 92, rfl⟩
abbrev main_call2_v1 : Ref sig .tc := ⟨.hbm, 93, rfl⟩
abbrev main_v65 : Ref sig .tc := ⟨.hbm, 94, rfl⟩
abbrev main_c_15 : Ref sig .tc := ⟨.hbm, 95, rfl⟩
abbrev main_v66 : Ref sig .tc := ⟨.hbm, 96, rfl⟩
abbrev main_v67 : Ref sig .tc := ⟨.hbm, 97, rfl⟩
abbrev main_c_16 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_c_17 : Ref sig .tc := ⟨.hbm, 104, rfl⟩
abbrev main_v73 : Ref sig .tc := ⟨.hbm, 105, rfl⟩
abbrev main_v74 : Ref sig .tc := ⟨.hbm, 106, rfl⟩
abbrev main_c_18 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_c_19 : Ref sig .tc := ⟨.hbm, 114, rfl⟩
abbrev main_v81 : Ref sig .tc := ⟨.hbm, 115, rfl⟩
abbrev main_v82 : Ref sig .tc := ⟨.hbm, 116, rfl⟩
abbrev main_c_20 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_21 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x2_0_1 : S3300000x1.BroadcastsInDim S3300000x2 (![0, 1] : Fin 2 → Fin S3300000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  dot_S100000x128_S128x16_S100000x16_1_0_0_1_n_n_wf : DotDims.WF S100000x128 S128x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x2_S100000x2_1_0_0_1_n_n_wf : DotDims.WF S100000x16 S16x2 S100000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1

variable [Facts₀]

def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x2_S100000x2_1_0_0_1_n_n : DotDims S100000x16 S16x2 S100000x2 where
  lhsContracting := [1]
  rhsContracting := [0]
  lhsNonContracting := [0]
  rhsNonContracting := [1]
  lhsBatch := []
  rhsBatch := []
  wf := dot_S100000x16_S16x2_S100000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf

class Facts : Prop extends Facts₀ where

variable [Facts]
-- ==== Proof.KernelRun.lean ====
/-
  The idealized kernel's run with its result named.

  @main is nine segments: the first matrix product's region, four stretches of host operations (the first layer's aggregation
  and the clamp at zero), the second product's region, three more stretches (the second layer's aggregation). The buffer contents
  at each boundary are a fold from the launch memory; after the last segment every unscoped buffer holds the last fold's
  contents, so the result buffer holds that fold read at the result, and the argument buffers hold what they were launched with.
  The same launch of the segments as the frame's, with the result buffer kept in the post.
-/
import proofs.«122053_j6433861009920_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last boundary's contents
    read at the result, and the six argument buffers end as launched. -/
theorem run_result : θ_run defs (onTc (τ := τ) (main (F := F))) ⟨m, fun _ => 0, ρ⟩ (fun r => ∀ c : Dev nD,
      r.2.mem ((c.tc : Thread nD τ).loc main_v96) = W9 m ρ c (Proc.devRef .tc main_v96)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v96 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.Hand

end
-- ==== Proof.LibProductIx.lean ====
/-
  A matrix product read at an entry, with the operand indices written by their coordinates.

  Two arrangements of dimension numbers, no batch axis in either:
  * [A, K] × [K, B] → [A, B], contracting the left factor's axis 1 with the right factor's axis 0:
    the sum over the contraction index at (p, q) is Σ_{k<K} l(p, k) · r(k, q);
  * [A, S, K] × [B, K] → [A, S, B], contracting the left factor's last axis with the right factor's axis 1 (the
    right factor used by rows: x · Wᵀ on every row of a stack of rows): the sum at (a, s, b) is
    Σ_{k<K} l(a, s, k) · r(b, k).
  So a product into a zero accumulator or a host dot_general is that sum, and reads one row of each factor.
  General: nothing here depends on a particular program. An instance supplies the kept coordinates (`hl0`, `hr1`, …: each is
  `unfold DotDims.lhsIdx; rw [dif_neg …, dif_pos …]; rfl` for literal dimension numbers) and `rfl` four times.
-/
import Idealize.ShloMosaic.Lib.ValueIdx
import Idealize.ShloMosaic.PureOps.Ideal.Laws

noncomputable section

namespace Cert.LibProductIx

open Idealize.ShloMosaic Idealize.ShloMosaic.ValueIdx

/-- [A, K] × [K, B]: the sum over the contraction index at (p, q) is Σ_k l(p, k) · r(k, q). -/
theorem sum_rows_cols {A B K : Nat} {φ₁ φ₂ : FTy}
    (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hl0 : ∀ (j : (⟨2, ![A, B]⟩ : Shape).Idx) (q : d.contr.Idx), (d.lhsIdx j q 0).val = (j 0).val)
    (hr1 : ∀ (j : (⟨2, ![A, B]⟩ : Shape).Idx) (q : d.contr.Idx), (d.rhsIdx j q 1).val = (j 1).val)
    (l : FVec Ideal (⟨2, ![A, K]⟩ : Shape) φ₁) (r : FVec Ideal (⟨2, ![K, B]⟩ : Shape) φ₂) (p : Fin A) (q : Fin B) :
    ∑ c : d.contr.Idx, l (d.lhsIdx (ix2 p q) c) * r (d.rhsIdx (ix2 p q) c) = ∑ k : Fin K, l (ix2 p k) * r (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k :=
    funext fun a => Fin.ext (by
      match a with
      | ⟨0, _⟩ => exact hl0 (ix2 p q) _
      | ⟨1, _⟩ => exact (d.lhsIdx_val_of_single hlc (ix2 p q) _).trans hk)
  have er : d.rhsIdx (ix2 p q) ((contrEquiv1 d K hr hs).symm k) = ix2 k q :=
    funext fun a => Fin.ext (by
      match a with
      | ⟨0, _⟩ => exact (d.rhsIdx_val_of_single hrc (ix2 p q) _).trans hk
      | ⟨1, _⟩ => exact hr1 (ix2 p q) _)
  rw [el, er]

/-- [A, S, K] × [B, K]: the sum over the contraction index at (a, s, b) is Σ_k l(a, s, k) · r(b, k). -/
theorem sum_stack_rows {A S B K : Nat} {φ₁ φ₂ : FTy}
    (d : DotDims (⟨3, ![A, S, K]⟩ : Shape) (⟨2, ![B, K]⟩ : Shape) (⟨3, ![A, S, B]⟩ : Shape))
    (hr : d.contr.rank = 1) (hs : d.contr.size ⟨0, by omega⟩ = K)
    (hlc : d.lhsContracting = [(2 : Fin 3)]) (hrc : d.rhsContracting = [(1 : Fin 2)])
    (hl0 : ∀ (j : (⟨3, ![A, S, B]⟩ : Shape).Idx) (q : d.contr.Idx), (d.lhsIdx j q 0).val = (j 0).val)
    (hl1 : ∀ (j : (⟨3, ![A, S, B]⟩ : Shape).Idx) (q : d.contr.Idx), (d.lhsIdx j q 1).val = (j 1).val)
    (hr0 : ∀ (j : (⟨3, ![A, S, B]⟩ : Shape).Idx) (q : d.contr.Idx), (d.rhsIdx j q 0).val = (j 2).val)
    (l : FVec Ideal (⟨3, ![A, S, K]⟩ : Shape) φ₁) (r : FVec Ideal (⟨2, ![B, K]⟩ : Shape) φ₂) (a : Fin A) (s : Fin S) (b : Fin B) :
    ∑ c : d.contr.Idx, l (d.lhsIdx (ix3 a s b) c) * r (d.rhsIdx (ix3 a s b) c) = ∑ k : Fin K, l (ix3 a s k) * r (ix2 b k) := by
  rw [← Equiv.sum_comp (contrEquiv1 d K hr hs).symm]
  refine Finset.sum_congr rfl fun k _ => ?_
  have hk := contrEquiv1_symm_val d K hr hs k
  have el : d.lhsIdx (ix3 a s b) ((contrEquiv1 d K hr hs).symm k) = ix3 a s k :=
    funext fun c => Fin.ext (by
      match c with
      | ⟨0, _⟩ => exact hl0 (ix3 a s b) _
      | ⟨1, _⟩ => exact hl1 (ix3 a s b) _
      | ⟨2, _⟩ => exact (d.lhsIdx_val_of_single hlc (ix3 a s b) _).trans hk)
  have er : d.rhsIdx (ix3 a s b) ((contrEquiv1 d K hr hs).symm k) = ix2 b k :=
    funext fun c => Fin.ext (by
      match c with
      | ⟨0, _⟩ => exact hr0 (ix3 a s b) _
      | ⟨1, _⟩ => exact (d.rhsIdx_val_of_single hrc (ix3 a s b) _).trans hk)
  rw [el, er]

end Cert.LibProductIx

end
-- ==== Proof.LibPlainDot.lean ====
/-
  A product of two matrices whose dimension numbers are the plain ones — no batch axis, the left factor's axis 1
  contracted with the right factor's axis 0, the kept axes the left factor's rows and the right factor's columns —
  read at an entry (p, q): into the zero accumulator it is Σ_k l(p,k) · r(k,q). The two facts a reading needs about
  the kept coordinates (the left factor is read in row p, the right factor in column q) are proved here once from the
  dimension numbers' lists, for any record with those lists.
  General: nothing here depends on a particular program.
-/
import proofs.«122053_j6433861009920_1_alg».proof.Proof.LibProductIx

noncomputable section

open scoped BigOperators

namespace Cert.LibPlainDot

open Idealize.ShloMosaic Idealize.ShloMosaic.ValueIdx

variable {A B K : Nat}

/-- The left factor is read in the row of the result's entry. -/
theorem lhs_row (d : DotDims (⟨2, ![A, K]⟩ : Shape) (⟨2, ![K, B]⟩ : Shape) (⟨2, ![A, B]⟩ : Shape))
    (hlb : d.lhsBatch = []) (hln : d.lhsNonContracting = [(0 : Fin 2)])
    (j : (⟨2, ![A, B]⟩ : Shape).Idx) (q : d.contr.Idx) : (d.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (a b : Nat) (ha : a < 2) (hb : b < 2), a = b →
      (j (⟨a, ha⟩ : Fin 2)).val = (j (⟨b, hb⟩ : Fin 2)).val := fun a b ha hb h => by subst h; rfl
  exact key _ _ _ _ (by simp [hlb, hln])

/-- The right factor is read in the column of the result's entry. -/
theorem rhs_col (d : DotDims (⟨2, ![A, K]⟩ : Shape) (⟨2, ![K, B]⟩ : Shape) (⟨2, ![A, B]⟩ : Shape))
    (hlb : d.lhsBatch = []) (hln : d.lhsNonContracting = [(0 : Fin 2)])
    (hrb : d.rhsBatch = []) (hrn : d.rhsNonContracting = [(1 : Fin 2)])
    (j : (⟨2, ![A, B]⟩ : Shape).Idx) (q : d.contr.Idx) : (d.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (a b : Nat) (ha : a < 2) (hb : b < 2), a = b →
      (j (⟨a, ha⟩ : Fin 2)).val = (j (⟨b, hb⟩ : Fin 2)).val := fun a b ha hb h => by subst h; rfl
  exact key _ _ _ _ (by simp [hlb, hln, hrn])

/-- The contraction sum of a plain product at (p, q). -/
theorem sum_at {φ₁ φ₂ : FTy} (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hlb : d.lhsBatch = []) (hln : d.lhsNonContracting = [(0 : Fin 2)])
    (hrb : d.rhsBatch = []) (hrn : d.rhsNonContracting = [(1 : Fin 2)])
    (l : FVec Ideal (⟨2, ![A, K]⟩ : Shape) φ₁) (r : FVec Ideal (⟨2, ![K, B]⟩ : Shape) φ₂) (p : Fin A) (q : Fin B) :
    ∑ c : d.contr.Idx, l (d.lhsIdx (ix2 p q) c) * r (d.rhsIdx (ix2 p q) c) = ∑ k : Fin K, l (ix2 p k) * r (ix2 k q) :=
  Cert.LibProductIx.sum_rows_cols d hr hs hlc hrc (lhs_row d hlb hln) (rhs_col d hlb hln hrb hrn) l r p q

/-- A plain product into the zero accumulator, at (p, q). -/
theorem matmul_zero_at {φ₁ φ₂ : FTy} (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hlb : d.lhsBatch = []) (hln : d.lhsNonContracting = [(0 : Fin 2)])
    (hrb : d.rhsBatch = []) (hrn : d.rhsNonContracting = [(1 : Fin 2)])
    (prec : Option ContractPrecision)
    (l : FVec Ideal (⟨2, ![A, K]⟩ : Shape) φ₁) (r : FVec Ideal (⟨2, ![K, B]⟩ : Shape) φ₂) (p : Fin A) (q : Fin B) :
    FloatOps.matmul d prec l r (constant (⟨2, ![A, B]⟩ : Shape) .f32 0x00000000#32) (ix2 p q)
      = ∑ k : Fin K, l (ix2 p k) * r (ix2 k q) := by
  rw [Ideal.matmul_constant_zero_apply]
  exact sum_at d hr hs hlc hrc hlb hln hrb hrn l r p q

/-- A host product with the plain dimension numbers, at (p, q). -/
theorem dotGeneral_at {φ₁ φ₂ : FTy} (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hlb : d.lhsBatch = []) (hln : d.lhsNonContracting = [(0 : Fin 2)])
    (hrb : d.rhsBatch = []) (hrn : d.rhsNonContracting = [(1 : Fin 2)])
    (prec : Option ContractPrecision) (sched : HostSchedule)
    (l : FVec Ideal (⟨2, ![A, K]⟩ : Shape) φ₁) (r : FVec Ideal (⟨2, ![K, B]⟩ : Shape) φ₂) (p : Fin A) (q : Fin B) :
    FloatOps.dotGeneral d prec sched l r (ix2 p q) = ∑ k : Fin K, l (ix2 p k) * r (ix2 k q) := by
  rw [Ideal.dotGeneral_apply]
  exact sum_at d hr hs hlc hrc hlb hln hrb hrn l r p q

end Cert.LibPlainDot

end
-- ==== Proof.MatProd.lean ====
/-
  The product of two matrices, entry by entry, on the extended reals: entry (p, q) of x · w is Σ_k x(p, k) · w(k, q).
  Both a host dot_general with the plain dimension numbers and a product into the zero accumulator are this function.
-/
import proofs.«122053_j6433861009920_1_alg».proof.Proof.LibPlainDot

noncomputable section

open scoped BigOperators

namespace Cert.MatProd

open Idealize.ShloMosaic Idealize.ShloMosaic.ValueIdx

/-- x · w at the entry i = (i 0, i 1): the sum over the shared axis. -/
def matProd {A K B : Nat} (x : FVec Ideal (⟨2, ![A, K]⟩ : Shape) .f32) (w : FVec Ideal (⟨2, ![K, B]⟩ : Shape) .f32) :
    FVec Ideal (⟨2, ![A, B]⟩ : Shape) .f32 :=
  fun i => ∑ k : Fin K, x (ix2 (i 0) k) * w (ix2 k (i 1))

theorem matProd_apply {A K B : Nat} (x : FVec Ideal (⟨2, ![A, K]⟩ : Shape) .f32) (w : FVec Ideal (⟨2, ![K, B]⟩ : Shape) .f32)
    (i : (⟨2, ![A, B]⟩ : Shape).Idx) : matProd x w i = ∑ k : Fin K, x (ix2 (i 0) k) * w (ix2 k (i 1)) := rfl

/-- A host dot_general with the plain dimension numbers is the product. -/
theorem dotGeneral_eq {A K B : Nat} (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hlb : d.lhsBatch = []) (hln : d.lhsNonContracting = [(0 : Fin 2)])
    (hrb : d.rhsBatch = []) (hrn : d.rhsNonContracting = [(1 : Fin 2)])
    (prec : Option ContractPrecision) (sched : HostSchedule)
    (x : FVec Ideal (⟨2, ![A, K]⟩ : Shape) .f32) (w : FVec Ideal (⟨2, ![K, B]⟩ : Shape) .f32) :
    FloatOps.dotGeneral d prec sched x w = matProd x w := by
  funext i
  rw [eq_ix2 i]
  exact Cert.LibPlainDot.dotGeneral_at d hr hs hlc hrc hlb hln hrb hrn prec sched x w (i 0) (i 1)

end Cert.MatProd

end
-- ==== Proof.Product.lean ====
/-
  What each of the two kernel regions leaves in its result array, at the extended reals.

  A region walks the rows of its left operand in 10 blocks of 10000 rows. At block t the body multiplies rows
  10000·t … 10000·t + 9999 of the left operand (all of its columns) by the whole right operand, into a zero accumulator, and
  the block is written back to the same rows of the result. A change of float format is the identity, and a product into the
  zero accumulator is the plain sum Σ_k l(p, k) · r(k, q). So entry (10000·t + p, q) of the result is
  Σ_k x(10000·t + p, k) · w(k, q): the blocks are the restrictions of ONE function of the whole operands, the matrix
  product, and the ten blocks cover every row.
-/
import proofs.«122053_j6433861009920_1_alg».proof.Proof.Gen.KernelIdeal.Frame
import proofs.«122053_j6433861009920_1_alg».proof.Proof.MatProd
import Idealize.ShloMosaic.Lib.Pipeline.Value
import Idealize.ShloMosaic.Lib.ValueIdx

noncomputable section

open scoped BigOperators

open Idealize.ShloMosaic Idealize.ShloMosaic.TcCoe Idealize.SL.Sem Idealize.ShloMosaic.ValueIdx
open Idealize.ShloMosaic.Pipeline (Dat)

namespace Cert.KernelIdeal.Product

open Cert.KernelIdeal Cert.KernelIdeal.Gen Cert.MatProd

theorem hz : (![0, 0] : Fin 2 → Nat) = fun _ => 0 := funext fun a => by fin_cases a <;> rfl

/-! ## Region 0: x · W1 -/

/-- The body's stored value at an entry of the block: the product of the two loaded blocks. -/
theorem pay0_at (x0 : Vec Ideal S10000x128 .f32) (x1 : Vec Ideal S128x16 .f32) (p : Fin 10000) (q : Fin 16) :
    k0_pay1 (F := Ideal) x0 x1 (ix2 p q) = ∑ k : Fin 128, x0 (ix2 p k) * x1 (ix2 k q) := by
  unfold k0_pay1
  exact Cert.LibPlainDot.matmul_zero_at dot_S10000x128_S128x16_S10000x16_1_0_0_1_n_n rfl rfl rfl rfl rfl rfl rfl rfl none x0 x1 p q

section Region0

variable (V : (c : Dev nD) → (b : Ref sig .tc) → Buf (Elt Ideal) ((c : Thread nD τ).loc b))

/-- The printed index maps over the grid: point t takes row block t of the left operand (all its columns) and the whole
    right operand, and writes row block t of the result. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The whole-array function whose row blocks the points write: the product of the region's two operands. -/
abbrev G0 (c : Dev nD) : S100000x16.Idx → Elt Ideal .f32 :=
  matProd (A := 100000) (K := 128) (B := 16) (V c main_arg0) (V c main_arg2)

/-- What point t writes back is row block t of the product of the operands as the region finds them. -/
theorem flushed0 (c : Dev nD) (t : Fin cfg0.N) :
    (dat0 V c).flushed 2 t = ((cfg0.win 2).blk t).view.read (Elt Ideal) (G0 V c) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x16) hz]
  obtain ⟨e0, e1, e2, e3, e4, e5⟩ := idx0 t
  funext j
  show k0_pay1 (F := Ideal) (iblk0 V c 0 t) (iblk0 V c 1 t) j = G0 V c (((cfg0.win 2).blk t).view.emb j)
  refine (congrArg (k0_pay1 (F := Ideal) (iblk0 V c 0 t) (iblk0 V c 1 t)) (eq_ix2 (n0 := 10000) (n1 := 16) j)).trans ?_
  refine (pay0_at (iblk0 V c 0 t) (iblk0 V c 1 t) (j 0) (j 1)).trans ?_
  unfold G0
  rw [matProd_apply]
  refine Finset.sum_congr rfl fun k _ => ?_
  have h0 : iblk0 V c 0 t (ix2 (j 0) k) = V c main_arg0 (ix2 ((((cfg0.win 2).blk t).view.emb j) 0) k) := by
    show V c main_arg0 (((cfg0.win 0).blk t).view.emb (ix2 (j 0) k)) = _
    refine congrArg (V c main_arg0) (funext fun a => Fin.ext ?_)
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  have h1 : iblk0 V c 1 t (ix2 k (j 1)) = V c main_arg2 (ix2 k ((((cfg0.win 2).blk t).view.emb j) 1)) := by
    show V c main_arg2 (((cfg0.win 1).blk t).view.emb (ix2 k (j 1))) = _
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 16 + 1 * (j 1).val = win0_2.index t (1 : Fin 2) * 16 + 1 * (j 1).val; omega
  rw [h0, h1]

/-- An index of the result is in point t's block iff each coordinate is in the block's range on its axis. -/
theorem mem_blk0 (t : Fin cfg0.N) (i : S100000x16.Idx) :
    i ∈ ((cfg0.win 2).blk t).view.set ↔ ∀ a : Fin 2, win0_2.index t a * S10000x16.size a ≤ (i a).val ∧ (i a).val < win0_2.index t a * S10000x16.size a + S10000x16.size a := by
  show i ∈ ((View.whole main_v0).slice (win0_2.rect t)).set ↔ _
  rw [View.set_slice_whole, Rect.mem_set_unit]
  exact Iff.rfl

/-- Every row of the result lies in the block of the point row / 10000. -/
theorem cover0 (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  have hN : cfg0.N = 10 := N_0
  refine ⟨⟨(i 0).val / 10000, by rw [hN]; omega⟩, flush0_2 _, ?_⟩
  rw [mem_blk0]
  obtain ⟨e0, e1, e2, e3, e4, e5⟩ := idx0 ⟨(i 0).val / 10000, by rw [hN]; omega⟩
  intro a
  match a with
  | ⟨0, _⟩ => show win0_2.index _ (0 : Fin 2) * 10000 ≤ (i 0).val ∧ (i 0).val < win0_2.index _ (0 : Fin 2) * 10000 + 10000; rw [e4]; show (i 0).val / 10000 * 10000 ≤ (i 0).val ∧ (i 0).val < (i 0).val / 10000 * 10000 + 10000; omega
  | ⟨1, _⟩ => show win0_2.index _ (1 : Fin 2) * 16 ≤ (i 1).val ∧ (i 1).val < win0_2.index _ (1 : Fin 2) * 16 + 16; rw [e5]; omega

/-- The result array after the region: the product of the operands as the region finds them. -/
theorem final0 (c : Dev nD) : (dat0 V c).arrAt 2 cfg0.N = G0 V c :=
  (dat0 V c).arrAt_eq_of_cover 2 (G0 V c) (fun t _ => flushed0 V c t) cover0

end Region0

/-! ## Region 1: h · W2 -/

/-- The body's stored value at an entry of the block: the product of the two loaded blocks (the cast of the left block
    to its own shape is the identity). -/
theorem pay1_at (x0 : Vec Ideal S10000x16 .f32) (x1 : Vec Ideal S16x2 .f32) (p : Fin 10000) (q : Fin 2) :
    k1_pay1 (F := Ideal) x0 x1 (ix2 p q) = ∑ k : Fin 16, x0 (ix2 p k) * x1 (ix2 k q) := by
  unfold k1_pay1
  simp only [shapeCast_self]
  exact Cert.LibPlainDot.matmul_zero_at dot_S10000x16_S16x2_S10000x2_1_0_0_1_n_n rfl rfl rfl rfl rfl rfl rfl rfl none x0 x1 p q

section Region1

variable (V : (c : Dev nD) → (b : Ref sig .tc) → Buf (Elt Ideal) ((c : Thread nD τ).loc b))

/-- The printed index maps over the grid: point t takes row block t of the left operand (all its columns) and the whole
    right operand, and writes row block t of the result. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The whole-array function whose row blocks the points write: the product of the region's two operands. -/
abbrev G1 (c : Dev nD) : S100000x2.Idx → Elt Ideal .f32 :=
  matProd (A := 100000) (K := 16) (B := 2) (V c main_v48) (V c main_arg4)

/-- What point t writes back is row block t of the product of the operands as the region finds them. -/
theorem flushed1 (c : Dev nD) (t : Fin cfg1.N) :
    (dat1 V c).flushed 2 t = ((cfg1.win 2).blk t).view.read (Elt Ideal) (G1 V c) := by
  show (cfg1.win 2).cut (grid1.coords t) ((dat1 V c).after 2 t) = _
  rw [after1_2]
  unfold out1_2
  rw [View.canon_unit_zero hz]
  simp only [View.ld_unit_zero (S := S10000x16) hz, View.ld_unit_zero (S := S16x2) hz]
  obtain ⟨e0, e1, e2, e3, e4, e5⟩ := idx1 t
  funext j
  show k1_pay1 (F := Ideal) (iblk1 V c 0 t) (iblk1 V c 1 t) j = G1 V c (((cfg1.win 2).blk t).view.emb j)
  refine (congrArg (k1_pay1 (F := Ideal) (iblk1 V c 0 t) (iblk1 V c 1 t)) (eq_ix2 (n0 := 10000) (n1 := 2) j)).trans ?_
  refine (pay1_at (iblk1 V c 0 t) (iblk1 V c 1 t) (j 0) (j 1)).trans ?_
  unfold G1
  rw [matProd_apply]
  refine Finset.sum_congr rfl fun k _ => ?_
  have h0 : iblk1 V c 0 t (ix2 (j 0) k) = V c main_v48 (ix2 ((((cfg1.win 2).blk t).view.emb j) 0) k) := by
    show V c main_v48 (((cfg1.win 0).blk t).view.emb (ix2 (j 0) k)) = _
    refine congrArg (V c main_v48) (funext fun a => Fin.ext ?_)
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 16 + 1 * k.val = k.val; omega
  have h1 : iblk1 V c 1 t (ix2 k (j 1)) = V c main_arg4 (ix2 k ((((cfg1.win 2).blk t).view.emb j) 1)) := by
    show V c main_arg4 (((cfg1.win 1).blk t).view.emb (ix2 k (j 1))) = _
    refine congrArg (V c main_arg4) (funext fun a => Fin.ext ?_)
    match a with
    | ⟨0, _⟩ => show win1_1.index t (0 : Fin 2) * 16 + 1 * k.val = k.val; omega
    | ⟨1, _⟩ => show win1_1.index t (1 : Fin 2) * 2 + 1 * (j 1).val = win1_2.index t (1 : Fin 2) * 2 + 1 * (j 1).val; omega
  rw [h0, h1]

/-- An index of the result is in point t's block iff each coordinate is in the block's range on its axis. -/
theorem mem_blk1 (t : Fin cfg1.N) (i : S100000x2.Idx) :
    i ∈ ((cfg1.win 2).blk t).view.set ↔ ∀ a : Fin 2, win1_2.index t a * S10000x2.size a ≤ (i a).val ∧ (i a).val < win1_2.index t a * S10000x2.size a + S10000x2.size a := by
  show i ∈ ((View.whole main_v49).slice (win1_2.rect t)).set ↔ _
  rw [View.set_slice_whole, Rect.mem_set_unit]
  exact Iff.rfl

/-- Every row of the result lies in the block of the point row / 10000. -/
theorem cover1 (i : S100000x2.Idx) : ∃ t : Fin cfg1.N, (cfg1.win 2).flush t = true ∧ i ∈ ((cfg1.win 2).blk t).view.set := by
  have hi0 : (i 0).val < 100000 := (i 0).isLt
  have hi1 : (i 1).val < 2 := (i 1).isLt
  have hN : cfg1.N = 10 := N_1
  refine ⟨⟨(i 0).val / 10000, by rw [hN]; omega⟩, flush1_2 _, ?_⟩
  rw [mem_blk1]
  obtain ⟨e0, e1, e2, e3, e4, e5⟩ := idx1 ⟨(i 0).val / 10000, by rw [hN]; omega⟩
  intro a
  match a with
  | ⟨0, _⟩ => show win1_2.index _ (0 : Fin 2) * 10000 ≤ (i 0).val ∧ (i 0).val < win1_2.index _ (0 : Fin 2) * 10000 + 10000; rw [e4]; show (i 0).val / 10000 * 10000 ≤ (i 0).val ∧ (i 0).val < (i 0).val / 10000 * 10000 + 10000; omega
  | ⟨1, _⟩ => show win1_2.index _ (1 : Fin 2) * 2 ≤ (i 1).val ∧ (i 1).val < win1_2.index _ (1 : Fin 2) * 2 + 2; rw [e5]; omega

/-- The result array after the region: the product of the operands as the region finds them. -/
theorem final1 (c : Dev nD) : (dat1 V c).arrAt 2 cfg1.N = G1 V c :=
  (dat1 V c).arrAt_eq_of_cover 2 (G1 V c) (fun t _ => flushed1 V c t) cover1

end Region1

end Cert.KernelIdeal.Product

end
-- ==== Proof.Rest.lean ====
/-
  What both programs do to a matrix of node features after the product with the weights: one graph-convolution layer's
  aggregation, at any reading of the floats.

  The edge list e : [2, E] gives sources e(0, ·) and targets e(1, ·); N self-loops are appended to both. The degree of a node is
  the number of edges (self-loop included) that end in it, its weight is degree^(-1/2) where the degree is positive and 0
  elsewhere, an edge's coefficient is the product of its two ends' weights, and the layer's result at node i is the sum, over
  the edges that end in i, of the coefficient times the source's row of h, plus the bias row. The first layer ends with the
  maximum with 0. An index is wrapped (a negative one has N added) before it is used to gather, as the lowering of an array
  index does. Both programs print these host operations identically; they are named here once, so that each program's
  result is these functions of ITS product — and the two products are the same matrix.
-/
import proofs.«122053_j6433861009920_1_alg».proof.Proof.Gen.ReferenceIdeal

noncomputable section

namespace Cert.Rest

open Cert.ReferenceIdeal Cert.ReferenceIdeal.Gen Idealize.ShloMosaic

variable {F : FTy → Type} [FloatOps F]

/-- The edges' sources, then the self-loops'. -/
def sources (e : IVec S2x3200000 32) : IVec S3300000 32 :=
  concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0

/-- The edges' targets, then the self-loops'. -/
def targets (e : IVec S2x3200000 32) : IVec S3300000 32 :=
  concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0

/-- An index list as a column of start indices. -/
def column {α : Type} (v : S3300000.Idx → α) : S3300000x1.Idx → α :=
  broadcastInDim S3300000x1 ![0] bcast_S3300000_S3300000x1_0 v

/-- A negative index has N added. -/
def wrapped (v : IVec S3300000 32) : IVec S3300000 32 :=
  select (cmpi .slt v (broadcastInDim S3300000 ![] bcast_S_S3300000 (constantI S_ 32 0#32))) (addi v (broadcastInDim S3300000 ![] bcast_S_S3300000 (constantI S_ 32 100000#32))) v

/-- The number of edges, self-loops included, that end in each node. -/
def degree (e : IVec S2x3200000 32) : FVec F S100000 .f32 :=
  Host.scatterAdd scatter_S100000_S3300000x1_S3300000_n_0_0_1 (broadcastInDim S100000 ![] bcast_S_S100000 (constant S_ .f32 0x00000000#32)) (column (targets e)) (broadcastInDim S3300000 ![] bcast_S_S3300000 (constant S_ .f32 0x3F800000#32))

/-- degree^(-1/2) where the degree is positive, 0 elsewhere. -/
def weight (e : IVec S2x3200000 32) : FVec F S100000 .f32 :=
  select (cmpf (F := F) .ogt (degree e) (broadcastInDim S100000 ![] bcast_S_S100000 (constant S_ .f32 0x00000000#32))) (Host.powf (degree e) (broadcastInDim S100000 ![] bcast_S_S100000 (constant S_ .f32 0xBF000000#32))) (broadcastInDim S100000 ![] bcast_S_S100000 (id (constant S_ .f32 0x00000000#32)))

/-- An edge's coefficient: the product of its two ends' weights. -/
def coefficient (e : IVec S2x3200000 32) : FVec F S3300000 .f32 :=
  mulf (Host.gather gather_S100000_S3300000x1_S3300000_n_0_n_n_0_1_1 (weight e) (column (wrapped (sources e)))) (Host.gather gather_S100000_S3300000x1_S3300000_n_0_n_n_0_1_1 (weight e) (column (wrapped (targets e))))

/-- The first layer after the product h = x · W1: aggregate 16-wide rows over the edges, add the bias, clamp at 0. -/
def layer1 (h : FVec F S100000x16 .f32) (e : IVec S2x3200000 32) (b : FVec F S16 .f32) : FVec F S100000x16 .f32 :=
  maximumf (addf (Host.scatterAdd scatter_S100000x16_S3300000x1_S3300000x16_1_0_0_1 (broadcastInDim S100000x16 ![] bcast_S_S100000x16 (constant S_ .f32 0x00000000#32)) (column (targets e)) (mulf (Host.gather gather_S100000x16_S3300000x1_S3300000x16_1_0_n_n_0_1_116 h (column (wrapped (sources e)))) (broadcastInDim S3300000x16 ![0, 1] bcast_S3300000x1_S3300000x16_0_1 (column (coefficient e))))) (broadcastInDim S100000x16 ![0, 1] bcast_S1x16_S100000x16_0_1 (broadcastInDim S1x16 ![1] bcast_S16_S1x16_1 b))) (broadcastInDim S100000x16 ![] bcast_S_S100000x16 (constant S_ .f32 0x00000000#32))

/-- The second layer after the product h = h1 · W2: aggregate 2-wide rows over the edges, add the bias. -/
def layer2 (h : FVec F S100000x2 .f32) (e : IVec S2x3200000 32) (b : FVec F S2 .f32) : FVec F S100000x2 .f32 :=
  addf (Host.scatterAdd scatter_S100000x2_S3300000x1_S3300000x2_1_0_0_1 (broadcastInDim S100000x2 ![] bcast_S_S100000x2 (constant S_ .f32 0x00000000#32)) (column (targets e)) (mulf (Host.gather gather_S100000x2_S3300000x1_S3300000x2_1_0_n_n_0_1_12 h (column (wrapped (sources e)))) (broadcastInDim S3300000x2 ![0, 1] bcast_S3300000x1_S3300000x2_0_1 (column (coefficient e))))) (broadcastInDim S100000x2 ![0, 1] bcast_S1x2_S100000x2_0_1 (broadcastInDim S1x2 ![1] bcast_S2_S1x2_1 b))

end Cert.Rest

end
-- ==== Proof.HostTail.lean ====
/-
  The idealized kernel's host operations between and after its two regions, read as the graph-convolution layers.

  From ANY buffer contents V, the four stretches of host operations between the regions leave, in the buffer the second region
  reads as its left operand, the first layer's aggregation of V's first product with V's edge list and first bias; the three
  stretches after the second region leave in the result buffer the second layer's aggregation of V's second product. No stretch
  writes an argument buffer. Each is the fold of the stretch's operations read at one buffer, operation by operation.
-/
import proofs.«122053_j6433861009920_1_alg».proof.Proof.Gen.KernelIdeal.Launch
import proofs.«122053_j6433861009920_1_alg».proof.Proof.Rest
import Idealize.ShloMosaic.Lib.StableHlo.Run

set_option maxRecDepth 16384

noncomputable section

namespace Cert.KernelIdeal.HostTail

open Cert.KernelIdeal Cert.KernelIdeal.Gen Idealize.ShloMosaic Idealize.ShloMosaic.TcCoe Idealize.SL.Sem Idealize.ShloMosaic.StableHlo

variable {F : FTy → Type} [FloatOps F]

/-- Reads of a fold that one pass left under a concatenation's list of pieces: each operation's result at its own buffer is its
    function's value, at any other buffer what was there. -/
macro "results_under_pieces" : tactic =>
  `(tactic| (repeat (first
               | rw [nullary_result] | rw [unary_result] | rw [binary_result] | rw [ternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))))

set_option maxHeartbeats 4000000 in
/-- Between the regions: the second region's left operand is the first layer of the first product. -/
theorem between (V : Valuation τ sig (Elt F)) :
    after hostOps1_3 (after hostOps1_2 (after hostOps1_1 (after hostOps1 V))) (Proc.devRef .tc main_v48)
      = Cert.Rest.layer1 (V (Proc.devRef .tc main_v0)) (V (Proc.devRef .tc main_arg1)) (V (Proc.devRef .tc main_arg3)) := by
  dsimp only [hostOps1, hostOps1_1, hostOps1_2, hostOps1_3]
  after_results_simp
  results_under_pieces
  rfl

set_option maxHeartbeats 4000000 in
/-- After the second region: the result is the second layer of the second product. -/
theorem afterwards (V : Valuation τ sig (Elt F)) :
    after hostOps2_2 (after hostOps2_1 (after hostOps2 V)) (Proc.devRef .tc main_v96)
      = Cert.Rest.layer2 (V (Proc.devRef .tc main_v49)) (V (Proc.devRef .tc main_arg1)) (V (Proc.devRef .tc main_arg5)) := by
  dsimp only [hostOps2, hostOps2_1, hostOps2_2]
  after_results_simp
  results_under_pieces
  rfl

/-- The stretches between the regions leave the edge list as it was. -/
theorem between_arg1 (V : Valuation τ sig (Elt F)) :
    after hostOps1_3 (after hostOps1_2 (after hostOps1_1 (after hostOps1 V))) (Proc.devRef .tc main_arg1)
      = V (Proc.devRef .tc main_arg1) := by
  dsimp only [hostOps1, hostOps1_1, hostOps1_2, hostOps1_3]
  after_results_simp

/-- The stretches between the regions leave the second layer's weights as they were. -/
theorem between_arg4 (V : Valuation τ sig (Elt F)) :
    after hostOps1_3 (after hostOps1_2 (after hostOps1_1 (after hostOps1 V))) (Proc.devRef .tc main_arg4)
      = V (Proc.devRef .tc main_arg4) := by
  dsimp only [hostOps1, hostOps1_1, hostOps1_2, hostOps1_3]
  after_results_simp

/-- The stretches between the regions leave the second layer's bias as it was. -/
theorem between_arg5 (V : Valuation τ sig (Elt F)) :
    after hostOps1_3 (after hostOps1_2 (after hostOps1_1 (after hostOps1 V))) (Proc.devRef .tc main_arg5)
      = V (Proc.devRef .tc main_arg5) := by
  dsimp only [hostOps1, hostOps1_1, hostOps1_2, hostOps1_3]
  after_results_simp

end Cert.KernelIdeal.HostTail

end
-- ==== Proof.Network.lean ====
/-
  The two-layer graph convolution as ONE function of the six arguments, on the extended reals:
  layer2 ((layer1 (x · W1) e b1) · W2) e b2 — each layer a matrix product with the weights followed by the aggregation over the
  edges. Both programs end with their result array at this function of the arguments.
-/
import proofs.«122053_j6433861009920_1_alg».proof.Proof.Rest
import proofs.«122053_j6433861009920_1_alg».proof.Proof.MatProd

noncomputable section

namespace Cert.Network

open Cert.ReferenceIdeal Cert.Rest Cert.MatProd Idealize.ShloMosaic

/-- The network's output from the node features x, the edge list e, and the two layers' weights and biases. -/
def network (x : FVec Ideal S100000x128 .f32) (e : IVec S2x3200000 32) (w1 : FVec Ideal S128x16 .f32) (b1 : FVec Ideal S16 .f32)
    (w2 : FVec Ideal S16x2 .f32) (b2 : FVec Ideal S2 .f32) : FVec Ideal S100000x2 .f32 :=
  layer2 (matProd (A := 100000) (K := 16) (B := 2) (layer1 (matProd (A := 100000) (K := 128) (B := 16) x w1) e b1) w2) e b2

end Cert.Network

end
-- ==== Proof.KernelValue.lean ====
/-
  The idealized kernel's result is the network.

  Walking the boundary contents of the kernel's run from the launch memory: the first region leaves x · W1 in its result array
  (its ten row blocks cover the array) and touches nothing else; the host operations up to the second region leave the first
  layer's aggregation of that product in the second region's left operand and write no argument; the second region leaves the
  product of that with W2; the host operations after it leave the second layer's aggregation in the result.
-/
import proofs.«122053_j6433861009920_1_alg».proof.Proof.Gen.KernelIdeal.Frame
import proofs.«122053_j6433861009920_1_alg».proof.Proof.Product
import proofs.«122053_j6433861009920_1_alg».proof.Proof.HostTail
import proofs.«122053_j6433861009920_1_alg».proof.Proof.Network

set_option maxRecDepth 16384

noncomputable section

namespace Cert.KernelIdeal.KernelValue

open Cert.KernelIdeal Cert.KernelIdeal.Gen Cert.MatProd
open Idealize.ShloMosaic Idealize.ShloMosaic.TcCoe Idealize.SL.Sem

variable (m : (ℓ : Loc nD τ sig) → Buf (Elt Ideal) ℓ) (ρ : Dev nD → PrngReg)

/-- After the first region its result array holds x · W1. -/
theorem product1 (c : Dev nD) :
    W1 m ρ c (Proc.devRef .tc main_v0)
      = matProd (A := 100000) (K := 128) (B := 16) (m ((c.tc : Thread nD τ).loc main_arg0)) (m ((c.tc : Thread nD τ).loc main_arg2)) :=
  (W1_arr m ρ c 2).trans (Product.final0 (V0 m ρ) c)

/-- The second region's left operand, as it finds it: the first layer of x · W1. -/
theorem hidden (c : Dev nD) :
    W5 m ρ c (Proc.devRef .tc main_v48)
      = Cert.Rest.layer1 (matProd (A := 100000) (K := 128) (B := 16) (m ((c.tc : Thread nD τ).loc main_arg0)) (m ((c.tc : Thread nD τ).loc main_arg2)))
          (m ((c.tc : Thread nD τ).loc main_arg1)) (m ((c.tc : Thread nD τ).loc main_arg3)) := by
  show StableHlo.after hostOps1_3 (StableHlo.after hostOps1_2 (StableHlo.after hostOps1_1 (StableHlo.after hostOps1 (W1 m ρ c)))) (Proc.devRef .tc main_v48) = _
  rw [HostTail.between, product1, W1_of_ne m ρ c main_arg1 (by decide), W1_of_ne m ρ c main_arg3 (by decide)]

/-- The edge list at the second region's entry is the launched one. -/
theorem edges5 (c : Dev nD) : W5 m ρ c (Proc.devRef .tc main_arg1) = m ((c.tc : Thread nD τ).loc main_arg1) := by
  show StableHlo.after hostOps1_3 (StableHlo.after hostOps1_2 (StableHlo.after hostOps1_1 (StableHlo.after hostOps1 (W1 m ρ c)))) (Proc.devRef .tc main_arg1) = _
  rw [HostTail.between_arg1, W1_of_ne m ρ c main_arg1 (by decide)]

theorem weights5 (c : Dev nD) : W5 m ρ c (Proc.devRef .tc main_arg4) = m ((c.tc : Thread nD τ).loc main_arg4) := by
  show StableHlo.after hostOps1_3 (StableHlo.after hostOps1_2 (StableHlo.after hostOps1_1 (StableHlo.after hostOps1 (W1 m ρ c)))) (Proc.devRef .tc main_arg4) = _
  rw [HostTail.between_arg4, W1_of_ne m ρ c main_arg4 (by decide)]

theorem bias5 (c : Dev nD) : W5 m ρ c (Proc.devRef .tc main_arg5) = m ((c.tc : Thread nD τ).loc main_arg5) := by
  show StableHlo.after hostOps1_3 (StableHlo.after hostOps1_2 (StableHlo.after hostOps1_1 (StableHlo.after hostOps1 (W1 m ρ c)))) (Proc.devRef .tc main_arg5) = _
  rw [HostTail.between_arg5, W1_of_ne m ρ c main_arg5 (by decide)]

/-- After the second region its result array holds (the first layer) · W2. -/
theorem product2 (c : Dev nD) :
    W6 m ρ c (Proc.devRef .tc main_v49)
      = matProd (A := 100000) (K := 16) (B := 2) (W5 m ρ c (Proc.devRef .tc main_v48)) (W5 m ρ c (Proc.devRef .tc main_arg4)) :=
  (W6_arr m ρ c 2).trans (Product.final1 (V5 m ρ) c)

/-- The result buffer after the last stretch of host operations: the network of the launched arguments. -/
theorem result (c : Dev nD) :
    W9 m ρ c (Proc.devRef .tc main_v96)
      = Cert.Network.network (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  show StableHlo.after hostOps2_2 (StableHlo.after hostOps2_1 (StableHlo.after hostOps2 (W6 m ρ c))) (Proc.devRef .tc main_v96) = _
  rw [HostTail.afterwards, product2, hidden, weights5, W6_of_ne m ρ c main_arg1 (by decide), W6_of_ne m ρ c main_arg5 (by decide),
    edges5, bias5]
  rfl

end Cert.KernelIdeal.KernelValue

end
-- ==== Proof.RefValue.lean ====
/-
  The reference's result is the network.

  The reference's run ends with its result array at the composed term of its 127 host operations. That term is the second
  layer's aggregation of a host product, whose left factor is the first layer's aggregation of another host product; and a host
  dot_general with the plain dimension numbers is, on the extended reals, the matrix product Σ_k l(p, k) · r(k, q).
-/
import proofs.«122053_j6433861009920_1_alg».proof.Proof.RefRun
import proofs.«122053_j6433861009920_1_alg».proof.Proof.Network

noncomputable section

namespace Cert.ReferenceIdeal.RefValue

open Cert.ReferenceIdeal Cert.ReferenceIdeal.Gen Cert.ReferenceIdeal.Value
open Idealize.ShloMosaic Idealize.ShloMosaic.TcCoe Idealize.SL.Sem

/-- At any reading of the floats, the run's term is the two layers around the two host products. -/
theorem res_layers {F : FTy → Type} [FloatOps F] (m : (ℓ : Loc nD τ sig) → Buf (Elt F) ℓ) (c : Dev nD) :
    res_main_v96 (F := F) m c
      = Cert.Rest.layer2 (FloatOps.dotGeneral dot_S100000x16_S16x2_S100000x2_1_0_0_1_n_n none .single
          (Cert.Rest.layer1 (FloatOps.dotGeneral dot_S100000x128_S128x16_S100000x16_1_0_0_1_n_n none .single
              (m ((c.tc : Thread nD τ).loc main_arg0)) (m ((c.tc : Thread nD τ).loc main_arg2)))
            (m ((c.tc : Thread nD τ).loc main_arg1)) (m ((c.tc : Thread nD τ).loc main_arg3)))
          (m ((c.tc : Thread nD τ).loc main_arg4)))
        (m ((c.tc : Thread nD τ).loc main_arg1)) (m ((c.tc : Thread nD τ).loc main_arg5)) := rfl

/-- On the extended reals the reference's result is the network of its arguments. -/
theorem result_eq (m : (ℓ : Loc nD τ sig) → Buf (Elt Ideal) ℓ) (c : Dev nD) :
    res_main_v96 (F := Ideal) m c
      = Cert.Network.network (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  rw [res_layers]
  rw [Cert.MatProd.dotGeneral_eq dot_S100000x128_S128x16_S100000x16_1_0_0_1_n_n rfl rfl rfl rfl rfl rfl rfl rfl none .single,
    Cert.MatProd.dotGeneral_eq dot_S100000x16_S16x2_S100000x2_1_0_0_1_n_n rfl rfl rfl rfl rfl rfl rfl rfl none .single]
  rfl

end Cert.ReferenceIdeal.RefValue

end
-- ==== Proof.lean ====
/-
  The certificate of a two-layer graph convolution whose two dense products x · W run as Pallas kernels, against the same network
  with host matrix products.

  Both programs compute, for node features x [100000, 128], an edge list e [2, 3200000], weights W1 [128, 16], W2 [16, 2] and
  biases b1, b2:  out = layer2 ((layer1 (x · W1) e b1) · W2) e b2, where a layer adds self-loops, weights every edge by
  deg^(-1/2) of its two ends, sums the weighted source rows into the target rows and adds the bias (the first layer then clamps
  at 0). Everything but the two products is the same host text in both programs. The kernel forms each product in 10 row blocks
  of 10000 rows, casting both factors to bf16 and accumulating in f32 from zero; on the extended reals a change of format is the
  identity and the accumulated product is Σ_k l(p, k) · r(k, q), which is also what the reference's dot_general is. So both
  result arrays are ONE function of the arguments, and the claim needs no finiteness: no sum is reordered across an
  infinity, and the precondition is never opened.

  frames: the two kernel programs' are the generated ones; the reference's is its run with the result dropped.
  preserves: the ideal pass rewrote nothing. algebraic: the kernel's run with its result named, read boundary by boundary
  (Proof/KernelValue.lean), and the reference's run (Proof/RefValue.lean), both at the network of the arguments.
-/
import proofs.«122053_j6433861009920_1_alg».proof.Defs
import proofs.«122053_j6433861009920_1_alg».proof.Proof.Gen.Kernel
import proofs.«122053_j6433861009920_1_alg».proof.Proof.Gen.Kernel.Skeleton
import proofs.«122053_j6433861009920_1_alg».proof.Proof.Gen.Kernel.Launch
import proofs.«122053_j6433861009920_1_alg».proof.Proof.Gen.Kernel.Points
import proofs.«122053_j6433861009920_1_alg».proof.Proof.Gen.Kernel.Frame
import proofs.«122053_j6433861009920_1_alg».proof.Proof.Gen.KernelIdeal
import proofs.«122053_j6433861009920_1_alg».proof.Proof.Gen.KernelIdeal.Skeleton
import proofs.«122053_j6433861009920_1_alg».proof.Proof.Gen.KernelIdeal.Launch
import proofs.«122053_j6433861009920_1_alg».proof.Proof.Gen.KernelIdeal.Points
import proofs.«122053_j6433861009920_1_alg».proof.Proof.Gen.KernelIdeal.Frame
import proofs.«122053_j6433861009920_1_alg».proof.Proof.Gen.ReferenceIdeal
import proofs.«122053_j6433861009920_1_alg».proof.Proof.Gen.Pre_finite_inputs
import proofs.«122053_j6433861009920_1_alg».proof.Proof.KernelRun
import proofs.«122053_j6433861009920_1_alg».proof.Proof.KernelValue
import proofs.«122053_j6433861009920_1_alg».proof.Proof.RefRun
import proofs.«122053_j6433861009920_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result array at the network of arguments that agree. -/
theorem algebraic : Cert.algebraic_KernelIdeal_ReferenceIdeal := by
  intro m ρ m' ρ' _ hagree
  refine ⟨fun c => Cert.Network.network
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.KernelValue.result m ρ c), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.result_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
